-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1x4096 : Shape := ⟨2, ![1, 4096]⟩
abbrev S1024x64 : Shape := ⟨2, ![1024, 64]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x4096 : S_.BroadcastsInDim S1x4096 (![] : Fin 0 → Fin S1x4096.rank)
  reducesTo_S1x4096_S_d0_1 : S1x4096.ReducesTo [0, 1] S_
  bcast_S_S1024x64 : S_.BroadcastsInDim S1024x64 (![] : Fin 0 → Fin S1024x64.rank)
  reducesTo_S1024x64_S_d0_1 : S1024x64.ReducesTo [0, 1] S_

variable [Facts]

def fn_part1 {F : FTy → Type} [FloatOps F] (main_arg4 : FVec F S1024x64 .f32) (main_v13 : IVec S_ 1) (main_v16 : IVec S1024x64 1) : IVec S_ 1 :=
  let main_c_5 : IVec S_ 1 := constantI S_ 1 1#1
  let main_v17 : IVec S_ 1 := (fun x v => Host.reduce IntOp.andi x v reducesTo_S1024x64_S_d0_1 h_S_) main_v16 main_c_5
  let main_v18 : IVec S_ 1 := andi main_v13 main_v17
  let main_v19 : FVec F S1024x64 .f32 := Host.absf main_arg4
  let main_cst_6 : FVec F S_ .f32 := constant S_ .f32 0x7F800000#32
  let main_v20 : FVec F S1024x64 .f32 := broadcastInDim S1024x64 ![] bcast_S_S1024x64 main_cst_6
  let main_v21 : IVec S1024x64 1 := cmpf .olt main_v19 main_v20
  let main_c_7 : IVec S_ 1 := constantI S_ 1 1#1
  let main_v22 : IVec S_ 1 := (fun x v => Host.reduce IntOp.andi x v reducesTo_S1024x64_S_d0_1 h_S_) main_v21 main_c_7
  let main_v23 : IVec S_ 1 := andi main_v18 main_v22
  main_v23

def fn {F : FTy → Type} [FloatOps F] (main_arg0 : FVec F S4096x1024 .f32) (main_arg1 : FVec F S1x4096 .f32) (main_arg2 : FVec F S1024x64 .f32) (main_arg3 : FVec F S1024x64 .f32) (main_arg4 : FVec F S1024x64 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x4096 .f32 := Host.absf main_arg1
  let main_cst_0 : FVec F S_ .f32 := constant S_ .f32 0x7F800000#32
  let main_v5 : FVec F S1x4096 .f32 := broadcastInDim S1x4096 ![] bcast_S_S1x4096 main_cst_0
  let main_v6 : IVec S1x4096 1 := cmpf .olt main_v4 main_v5
  let main_c_1 : IVec S_ 1 := constantI S_ 1 1#1
  let main_v7 : IVec S_ 1 := (fun x v => Host.reduce IntOp.andi x v reducesTo_S1x4096_S_d0_1 h_S_) main_v6 main_c_1
  let main_v8 : IVec S_ 1 := andi main_v3 main_v7
  let main_v9 : FVec F S1024x64 .f32 := Host.absf main_arg2
  let main_cst_2 : FVec F S_ .f32 := constant S_ .f32 0x7F800000#32
  let main_v10 : FVec F S1024x64 .f32 := broadcastInDim S1024x64 ![] bcast_S_S1024x64 main_cst_2
  let main_v11 : IVec S1024x64 1 := cmpf .olt main_v9 main_v10
  let main_c_3 : IVec S_ 1 := constantI S_ 1 1#1
  let main_v12 : IVec S_ 1 := (fun x v => Host.reduce IntOp.andi x v reducesTo_S1024x64_S_d0_1 h_S_) main_v11 main_c_3
  let main_v13 : IVec S_ 1 := andi main_v8 main_v12
  let main_v14 : FVec F S1024x64 .f32 := Host.absf main_arg3
  let main_cst_4 : FVec F S_ .f32 := constant S_ .f32 0x7F800000#32
  let main_v15 : FVec F S1024x64 .f32 := broadcastInDim S1024x64 ![] bcast_S_S1024x64 main_cst_4
  let main_v16 : IVec S1024x64 1 := cmpf .olt main_v14 main_v15
  fn_part1 (F := F) main_arg4 main_v13 main_v16
-- ==== Kernel.lean ====
abbrev S4096x1024 : Shape := ⟨2, ![4096, 1024]⟩
abbrev S1x4096 : Shape := ⟨2, ![1, 4096]⟩
abbrev S1024x64 : Shape := ⟨2, ![1024, 64]⟩
abbrev S4096x1 : Shape := ⟨2, ![4096, 1]⟩
abbrev S4096x64 : Shape := ⟨2, ![4096, 64]⟩
abbrev S1024x1024 : Shape := ⟨2, ![1024, 1024]⟩
abbrev S1024x1 : Shape := ⟨2, ![1024, 1]⟩
abbrev S512x64 : Shape := ⟨2, ![512, 64]⟩
abbrev S512x4096 : Shape := ⟨2, ![512, 4096]⟩
abbrev S512 : Shape := ⟨1, ![512]⟩
abbrev S512x1 : Shape := ⟨2, ![512, 1]⟩

abbrev nBuf : Space → Nat
  | .hbm => 10
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S1x4096, .f32⟩
  | .hbm, ⟨2, _⟩ => ⟨S1024x64, .f32⟩
  | .hbm, ⟨3, _⟩ => ⟨S1024x64, .f32⟩
  | .hbm, ⟨4, _⟩ => ⟨S1024x64, .f32⟩
  | .hbm, ⟨5, _⟩ => ⟨S4096x1, .f32⟩
  | .hbm, ⟨6, _⟩ => ⟨S4096x64, .f32⟩
  | .hbm, ⟨7, _⟩ => ⟨S4096x64, .f32⟩
  | .hbm, ⟨8, _⟩ => ⟨S4096x64, .f32⟩
  | .hbm, ⟨9, _⟩ => ⟨S4096x64, .f32⟩
  | .local _ .vmem, ⟨0, _⟩ => ⟨S1024x1024, .f32⟩
  | .local _ .vmem, ⟨1, _⟩ => ⟨S1024x1024, .f32⟩
  | .local _ .vmem, ⟨2, _⟩ => ⟨S1024x64, .f32⟩
  | .local _ .vmem, ⟨3, _⟩ => ⟨S1024x64, .f32⟩
  | .local _ .vmem, ⟨4, _⟩ => ⟨S1024x64, .f32⟩
  | .local _ .vmem, ⟨5, _⟩ => ⟨S1024x1, .f32⟩
  | .local _ .vmem, ⟨6, _⟩ => ⟨S1024x1, .f32⟩
  | .local _ .vmem, ⟨7, _⟩ => ⟨S1024x64, .f32⟩
  | .local _ .vmem, ⟨8, _⟩ => ⟨S1024x64, .f32⟩
  | .local _ .vmem, ⟨9, _⟩ => ⟨S1024x64, .f32⟩
  | .local _ .vmem, ⟨10, _⟩ => ⟨S1024x64, .f32⟩
  | .local _ .vmem, ⟨11, _⟩ => ⟨S1024x64, .f32⟩
  | .local _ .vmem, ⟨12, _⟩ => ⟨S1024x64, .f32⟩
  | .local _ .vmem, ⟨13, _⟩ => ⟨S512x64, .f32⟩
  | .local _ .vmem, ⟨14, _⟩ => ⟨S512x64, .f32⟩
  | .local _ .vmem, ⟨15, _⟩ => ⟨S4096x64, .f32⟩
  | .local _ .vmem, ⟨16, _⟩ => ⟨S4096x64, .f32⟩
  | .local _ .vmem, ⟨17, _⟩ => ⟨S512x64, .f32⟩
  | .local _ .vmem, ⟨18, _⟩ => ⟨S512x64, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg3_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4096x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S1x4096_S4096x1 : S1x4096.ShapeCasts S4096x1
  inb_S1024x1024_S1024x1024_0_0 : ∀ a, (![0, 0] : Fin 2 → Nat) a + S1024x1024.size a ≤ S1024x1024.size a
  h_S1024x1024 : 0 < S1024x1024.numel
  inb_S1024x64_S1024x64_0_0 : ∀ a, (![0, 0] : Fin 2 → Nat) a + S1024x64.size a ≤ S1024x64.size a
  h_S1024x64 : 0 < S1024x64.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x64 : S1024x1.Broadcasts S1024x64
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  reduces_S512x4096_S512 : S512x4096.Reduces [1] S512
  shapeCasts_S512_S512x1 : S512.ShapeCasts S512x1
  broadcasts_S512x1_S512x4096 : S512x1.Broadcasts S512x4096
  dot_S1024x1024_S1024x64_S1024x64_1_0_0_1_n_n_wf : DotDims.WF S1024x1024 S1024x64 S1024x64 [1] [0] [0] [1] [] []
  dot_S512x64_S4096x64_S512x4096_1_1_0_0_n_n_wf : DotDims.WF S512x64 S4096x64 S512x4096 [1] [1] [0] [0] [] []
  dot_S512x4096_S4096x64_S512x64_1_0_0_1_n_n_wf : DotDims.WF S512x4096 S4096x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S1024x64.size a
  hwx0_1 : ∀ i : grid0.Coords, EltTy.bits .f32 = 32 ∨ (Rect.block (s := S1024x64) S1024x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S1024x64.size a
  hwx0_2 : ∀ i : grid0.Coords, EltTy.bits .f32 = 32 ∨ (Rect.block (s := S1024x64) S1024x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S1024x64.size a
  hwx0_3 : ∀ i : grid0.Coords, EltTy.bits .f32 = 32 ∨ (Rect.block (s := S1024x64) S1024x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S4096x1.size a
  hwx0_4 : ∀ i : grid0.Coords, EltTy.bits .f32 = 32 ∨ (Rect.block (s := S4096x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x64.size a ≤ S4096x64.size a
  hwx0_5 : ∀ i : grid0.Coords, EltTy.bits .f32 = 32 ∨ (Rect.block (s := S4096x64) S1024x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x64.size a ≤ S4096x64.size a
  hwx0_6 : ∀ i : grid0.Coords, EltTy.bits .f32 = 32 ∨ (Rect.block (s := S4096x64) S1024x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x64.size a ≤ S4096x64.size a
  hwx0_7 : ∀ i : grid0.Coords, EltTy.bits .f32 = 32 ∨ (Rect.block (s := S4096x64) S1024x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x64.size a ≤ S4096x64.size a
  hwx1_0 : ∀ i : grid1.Coords, EltTy.bits .f32 = 32 ∨ (Rect.block (s := S4096x64) S512x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x64.size a ≤ S4096x64.size a
  hwx1_1 : ∀ i : grid1.Coords, EltTy.bits .f32 = 32 ∨ (Rect.block (s := S4096x64) S4096x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x64.size a ≤ S4096x64.size a
  hwx1_2 : ∀ i : grid1.Coords, EltTy.bits .f32 = 32 ∨ (Rect.block (s := S4096x64) S4096x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x64.size a ≤ S4096x64.size a
  hwx1_3 : ∀ i : grid1.Coords, EltTy.bits .f32 = 32 ∨ (Rect.block (s := S4096x64) S512x64.size (cc1_transform_3 i) (hinb1_3 i)).WholeWords (EltTy.packing .f32)

variable [Facts₀]

def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S512x64_S4096x64_S512x4096_1_1_0_0_n_n : DotDims S512x64 S4096x64 S512x4096 where
  lhsContracting := [1]
  rhsContracting := [1]
  lhsNonContracting := [0]
  rhsNonContracting := [0]
  lhsBatch := []
  rhsBatch := []
  wf := dot_S512x64_S4096x64_S512x4096_1_1_0_0_n_n_wf
def dot_S512x4096_S4096x64_S512x64_1_0_0_1_n_n : DotDims S512x4096 S4096x64 S512x64 where
  lhsContracting := [1]
  rhsContracting := [0]
  lhsNonContracting := [0]
  rhsNonContracting := [1]
  lhsBatch := []
  rhsBatch := []
  wf := dot_S512x4096_S4096x64_S512x64_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1024x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_0) S1024x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_1) S1024x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v1_2) S1024x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v1_0) S512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_1) S4096x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1_2) S4096x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S512x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4096x1024 : Shape := ⟨2, ![4096, 1024]⟩
abbrev S1x4096 : Shape := ⟨2, ![1, 4096]⟩
abbrev S1024x64 : Shape := ⟨2, ![1024, 64]⟩
abbrev S4096x64 : Shape := ⟨2, ![4096, 64]⟩
abbrev S_ : Shape := ⟨0, ![]⟩
abbrev S64x4096 : Shape := ⟨2, ![64, 4096]⟩
abbrev S4096x4096 : Shape := ⟨2, ![4096, 4096]⟩
abbrev S4096 : Shape := ⟨1, ![4096]⟩
abbrev S4096x1 : Shape := ⟨2, ![4096, 1]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x4096, .f32⟩
  | .hbm, ⟨2, _⟩ => ⟨S1024x64, .f32⟩
  | .hbm, ⟨3, _⟩ => ⟨S1024x64, .f32⟩
  | .hbm, ⟨4, _⟩ => ⟨S1024x64, .f32⟩
  | .hbm, ⟨5, _⟩ => ⟨S4096x64, .f32⟩
  | .hbm, ⟨6, _⟩ => ⟨S4096x64, .f32⟩
  | .hbm, ⟨7, _⟩ => ⟨S4096x64, .f32⟩
  | .hbm, ⟨8, _⟩ => ⟨S_, .f32⟩
  | .hbm, ⟨9, _⟩ => ⟨S_, .f32⟩
  | .hbm, ⟨10, _⟩ => ⟨S64x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096, .f32⟩
  | .hbm, ⟨18, _⟩ => ⟨S_, .f32⟩
  | .hbm, ⟨19, _⟩ => ⟨S4096, .f32⟩
  | .hbm, ⟨20, _⟩ => ⟨S4096, .f32⟩
  | .hbm, ⟨21, _⟩ => ⟨S4096x1, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S4096x4096, .f32⟩
  | .hbm, ⟨29, _⟩ => ⟨S4096x4096, .f32⟩
  | .hbm, ⟨30, _⟩ => ⟨S4096x64, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]

class Facts₀ : Prop where
  transposes_S4096x64_S64x4096_1_0 : S4096x64.Transposes [1, 0] S64x4096
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  dot_S4096x1024_S1024x64_S4096x64_1_0_0_1_n_n_wf : DotDims.WF S4096x1024 S1024x64 S4096x64 [1] [0] [0] [1] [] []
  dot_S4096x64_S64x4096_S4096x4096_1_0_0_1_n_n_wf : DotDims.WF S4096x64 S64x4096 S4096x4096 [1] [0] [0] [1] [] []
  dot_S4096x4096_S4096x64_S4096x64_1_0_0_1_n_n_wf : DotDims.WF S4096x4096 S4096x64 S4096x64 [1] [0] [0] [1] [] []

variable [Facts₀]

def dot_S4096x1024_S1024x64_S4096x64_1_0_0_1_n_n : DotDims S4096x1024 S1024x64 S4096x64 where
  lhsContracting := [1]
  rhsContracting := [0]
  lhsNonContracting := [0]
  rhsNonContracting := [1]
  lhsBatch := []
  rhsBatch := []
  wf := dot_S4096x1024_S1024x64_S4096x64_1_0_0_1_n_n_wf
def dot_S4096x64_S64x4096_S4096x4096_1_0_0_1_n_n : DotDims S4096x64 S64x4096 S4096x4096 where
  lhsContracting := [1]
  rhsContracting := [0]
  lhsNonContracting := [0]
  rhsNonContracting := [1]
  lhsBatch := []
  rhsBatch := []
  wf := dot_S4096x64_S64x4096_S4096x4096_1_0_0_1_n_n_wf
def dot_S4096x4096_S4096x64_S4096x64_1_0_0_1_n_n : DotDims S4096x4096 S4096x64 S4096x64 where
  lhsContracting := [1]
  rhsContracting := [0]
  lhsNonContracting := [0]
  rhsNonContracting := [1]
  lhsBatch := []
  rhsBatch := []
  wf := dot_S4096x4096_S4096x64_S4096x64_1_0_0_1_n_n_wf

class Facts : Prop extends Facts₀ where

variable [Facts]
-- ==== Proof.AttnSpec.lean ====
/-
  Single-head attention over 4096 tokens, stated once as functions of the argument arrays on the extended reals.

  Both programs project the tokens three ways (`proj`: row `q` of the tokens against column `d` of a weight matrix),
  form a 4096 × 4096 score matrix, and per row subtract the row's maximum, exponentiate, divide by the row's sum of
  exponentials and multiply by the value projection (`attnRow`). They differ only in where the two scalings of the
  scores sit: one program multiplies the query projection by 1/8 and the key projection by the key's mask entry BEFORE
  the inner product over the 64 channels (`scoreK`); the other takes the inner product first, then multiplies by the
  mask entry and divides by `sqrt 64` (`scoreR`). Moving a factor across a finite sum is distributivity, which on the
  extended reals needs every term finite: `score_eq` proves the two equal when the arrays hold real numbers, through
  the reals (`sqrt 64 = 8`, `x / 8 = x * (1/8)`, `∑ (a·s)(b·m) = ((∑ a·b)·m)·s`).
-/
import Idealize.ShloMosaic.Lib.ValueIdx
import Idealize.ShloMosaic.PureOps.Ideal

noncomputable section

namespace Cert.AttnSpec

open Idealize.ShloMosaic Idealize.ShloMosaic.ValueIdx

abbrev Tok : Type := (⟨2, ![4096, 1024]⟩ : Shape).Idx → EReal
abbrev Wt : Type := (⟨2, ![1024, 64]⟩ : Shape).Idx → EReal
abbrev Msk : Type := (⟨2, ![1, 4096]⟩ : Shape).Idx → EReal
abbrev Mat : Type := (⟨2, ![4096, 64]⟩ : Shape).Idx → EReal

/-- The three float constants the programs spell, as the extended reals their patterns denote: 0.125, 64.0, -∞. -/
def c8 : EReal := Ideal.ofBits .f32 0x3E000000#32
def c64 : EReal := Ideal.ofBits .f32 0x42800000#32
def negInf : EReal := Ideal.ofBits .f32 0xFF800000#32

theorem c8_eq : c8 = ((1 / 8 : ℝ) : EReal) := by
  unfold c8; simp [Ideal.ofBits, Ideal.ieee, -EReal.coe_mul]; norm_num

theorem c64_eq : c64 = ((64 : ℝ) : EReal) := by
  unfold c64; simp [Ideal.ofBits, Ideal.ieee, -EReal.coe_mul]; norm_num

/-- Row `q` of the tokens against column `d` of a weight matrix. -/
def proj (X : Tok) (W : Wt) (q : Fin 4096) (d : Fin 64) : EReal :=
  ∑ e : Fin 1024, X (ix2 q e) * W (ix2 e d)

/-- The maximum of a row of scores, folded from -∞. -/
def rowMax (S : Fin 4096 → EReal) : EReal := (Finset.univ : Finset (Fin 4096)).fold max negInf S

/-- One output entry from a row `S` of scores and a column `V` of values: the softmax weights of the row, each
    `exp (S k - max S)` over the row's sum of those, against the values. -/
def attnRow (S : Fin 4096 → EReal) (V : Fin 4096 → EReal) : EReal :=
  ∑ k : Fin 4096, Ideal.div (Ideal.exp (S k - rowMax S)) (∑ k' : Fin 4096, Ideal.exp (S k' - rowMax S)) * V k

/-- The score of query `q` against key `k` with both scalings applied to the projections, before the inner product. -/
def scoreK (X : Tok) (WQ WK : Wt) (M : Msk) (q k : Fin 4096) : EReal :=
  ∑ d : Fin 64, (proj X WQ q d * c8) * (proj X WK k d * M (ix2 0 k))

/-- The same score with the scalings applied after the inner product: times the mask entry, over `sqrt 64`. -/
def scoreR (X : Tok) (WQ WK : Wt) (M : Msk) (q k : Fin 4096) : EReal :=
  Ideal.div ((∑ d : Fin 64, proj X WQ q d * proj X WK k d) * M (ix2 0 k)) (Ideal.sqrt c64)

/-- The whole result, by either score. -/
def outK (X : Tok) (M : Msk) (WQ WK WV : Wt) : Mat := fun i =>
  attnRow (fun k => scoreK X WQ WK M (i 0) k) (fun k => proj X WV k (i 1))

def outR (X : Tok) (M : Msk) (WQ WK WV : Wt) : Mat := fun i =>
  attnRow (fun k => scoreR X WQ WK M (i 0) k) (fun k => proj X WV k (i 1))

/-- The coercion of the reals into the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A projection of real arrays is a real number. -/
theorem proj_coe (x : (⟨2, ![4096, 1024]⟩ : Shape).Idx → ℝ) (w : (⟨2, ![1024, 64]⟩ : Shape).Idx → ℝ) (q : Fin 4096) (d : Fin 64) :
    proj (fun i => (x i : EReal)) (fun i => (w i : EReal)) q d = ((∑ e : Fin 1024, x (ix2 q e) * w (ix2 e d) : ℝ) : EReal) := by
  unfold proj
  rw [coe_sum]
  exact Finset.sum_congr rfl fun e _ => (EReal.coe_mul _ _).symm

theorem sqrt_c64 : Ideal.sqrt c64 = ((8 : ℝ) : EReal) := by
  rw [c64_eq, Ideal.sqrt_coe, if_neg (by norm_num)]
  have h : Real.sqrt 64 = 8 := by
    rw [show (64 : ℝ) = 8 ^ 2 by norm_num]
    exact Real.sqrt_sq (by norm_num)
  rw [h]

/-- On real arrays the two scores agree: distributivity over the 64 channels, in the reals. -/
theorem score_eq (x : (⟨2, ![4096, 1024]⟩ : Shape).Idx → ℝ) (wq wk : (⟨2, ![1024, 64]⟩ : Shape).Idx → ℝ)
    (mk : (⟨2, ![1, 4096]⟩ : Shape).Idx → ℝ) (q k : Fin 4096) :
    scoreK (fun i => (x i : EReal)) (fun i => (wq i : EReal)) (fun i => (wk i : EReal)) (fun i => (mk i : EReal)) q k
      = scoreR (fun i => (x i : EReal)) (fun i => (wq i : EReal)) (fun i => (wk i : EReal)) (fun i => (mk i : EReal)) q k := by
  unfold scoreK scoreR
  rw [sqrt_c64, Ideal.div_coe (by norm_num : (8 : ℝ) ≠ 0), c8_eq]
  simp only [proj_coe, ← EReal.coe_mul, ← coe_sum]
  refine congrArg _ ?_
  rw [Finset.sum_mul, Finset.sum_mul]
  exact Finset.sum_congr rfl fun d _ => by ring

/-- So on real arrays the two results agree. -/
theorem out_eq (X : Tok) (M : Msk) (WQ WK WV : Wt)
    (hX : ∃ x : (⟨2, ![4096, 1024]⟩ : Shape).Idx → ℝ, X = fun i => (x i : EReal))
    (hM : ∃ mk : (⟨2, ![1, 4096]⟩ : Shape).Idx → ℝ, M = fun i => (mk i : EReal))
    (hQ : ∃ wq : (⟨2, ![1024, 64]⟩ : Shape).Idx → ℝ, WQ = fun i => (wq i : EReal))
    (hK : ∃ wk : (⟨2, ![1024, 64]⟩ : Shape).Idx → ℝ, WK = fun i => (wk i : EReal)) :
    outK X M WQ WK WV = outR X M WQ WK WV := by
  obtain ⟨x, rfl⟩ := hX
  obtain ⟨mk, rfl⟩ := hM
  obtain ⟨wq, rfl⟩ := hQ
  obtain ⟨wk, rfl⟩ := hK
  funext i
  unfold outK outR
  refine congrArg (fun S => attnRow S _) (funext fun k => ?_)
  exact score_eq x wq wk mk (i 0) k

end Cert.AttnSpec

end
-- ==== Proof.LibPlainMatmul.lean ====
/-
  A plain matrix product read at an index, at the ideal values.

  For the dimension numbers of an ordinary product of an `M × K` matrix by a `K × N` matrix (contract the left
  operand's axis 1 with the right operand's axis 0, no batch axis), the product accumulated into the zero matrix
  is, at row `r` and column `e`, the sum over `k < K` of `lhs (r, k) * rhs (k, e)` on the extended reals: no
  rounding, no chunk order, and the zero accumulator contributes `0 +`. Stated over literal-size coordinates
  (`ix2 r e`) so that it applies to a printed product by unification; a printed record of dimension numbers with
  these six lists is `DotDims.plain M K N` up to the proof of its well-formedness, which is irrelevant.
-/
import Idealize.ShloMosaic.Lib.ValueIdx
import Idealize.ShloMosaic.PureOps.Ideal.Laws

noncomputable section

namespace Idealize.ShloMosaic.PlainMatmul

open Idealize.ShloMosaic Idealize.ShloMosaic.ValueIdx

/-- The contraction shape of a plain product has one axis, of extent `K`. -/
theorem contr_rank (M K N : ℕ) : (DotDims.plain M K N).contr.rank = 1 := rfl

theorem contr_size (M K N : ℕ) : (DotDims.plain M K N).contr.size ⟨0, by rw [contr_rank]; exact Nat.one_pos⟩ = K := rfl

/-- The operands' coordinates at output index `j` and contraction index `q`: the left operand reads `j`'s row and `q`,
    the right operand `q` and `j`'s column. -/
theorem lhs_val0 (M K N : ℕ) (j : (⟨2, ![M, N]⟩ : Shape).Idx) (q : (DotDims.plain M K N).contr.Idx) :
    ((DotDims.plain M K N).lhsIdx j q 0).val = (j 0).val := rfl
theorem lhs_val1 (M K N : ℕ) (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single (cl := (1 : Fin 2)) rfl j q
theorem rhs_val0 (M K N : ℕ) (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single (cr := (0 : Fin 2)) rfl j q
theorem rhs_val1 (M K N : ℕ) (j : (⟨2, ![M, N]⟩ : Shape).Idx) (q : (DotDims.plain M K N).contr.Idx) :
    ((DotDims.plain M K N).rhsIdx j q 1).val = (j 1).val := rfl

/-- So at output `(r, e)` and contraction coordinate `k` the left operand is read at `(r, k)` and the right at `(k, e)`. -/
theorem lhsIdx_eq (M K N : ℕ) (r : Fin M) (e : Fin N) (k : Fin K) :
    (DotDims.plain M K N).lhsIdx (ix2 r e) ((contrEquiv1 (DotDims.plain M K N) K (contr_rank M K N) (contr_size M K N)).symm k) = ix2 r k := by
  have hk := contrEquiv1_symm_val (DotDims.plain M K N) K (contr_rank M K N) (contr_size M K N) k
  funext a
  refine Fin.ext ?_
  match a with
  | ⟨0, _⟩ => exact lhs_val0 M K N _ _
  | ⟨1, _⟩ => exact (lhs_val1 M K N _ _).trans hk

theorem rhsIdx_eq (M K N : ℕ) (r : Fin M) (e : Fin N) (k : Fin K) :
    (DotDims.plain M K N).rhsIdx (ix2 r e) ((contrEquiv1 (DotDims.plain M K N) K (contr_rank M K N) (contr_size M K N)).symm k) = ix2 k e := by
  have hk := contrEquiv1_symm_val (DotDims.plain M K N) K (contr_rank M K N) (contr_size M K N) k
  funext a
  refine Fin.ext ?_
  match a with
  | ⟨0, _⟩ => exact (rhs_val0 M K N _ _).trans hk
  | ⟨1, _⟩ => exact rhs_val1 M K N _ _

/-- A plain product into the zero matrix, at `(r, e)`: the sum over the inner axis of the operands' products. -/
theorem matmul_zero_apply (M K N : ℕ) (prec : Option ContractPrecision)
    (lhs : FVec Ideal ⟨2, ![M, K]⟩ .f32) (rhs : FVec Ideal ⟨2, ![K, N]⟩ .f32) (r : Fin M) (e : Fin N) :
    matmul (DotDims.plain M K N) prec lhs rhs (constant (F := Ideal) ⟨2, ![M, N]⟩ .f32 0x00000000#32) (ix2 r e)
      = ∑ k : Fin K, lhs (ix2 r k) * rhs (ix2 k e) := by
  show FloatOps.matmul (DotDims.plain M K N) prec lhs rhs (constant (F := Ideal) ⟨2, ![M, N]⟩ .f32 0x00000000#32) (ix2 r e) = _
  rw [Ideal.matmul_constant_zero_apply, ← Equiv.sum_comp (contrEquiv1 (DotDims.plain M K N) K (contr_rank M K N) (contr_size M K N)).symm]
  refine Finset.sum_congr rfl fun k _ => ?_
  rw [lhsIdx_eq, rhsIdx_eq]

end Idealize.ShloMosaic.PlainMatmul

end
-- ==== Proof.Payloads.lean ====
/-
  What each store of the two kernel bodies holds, read at one index, on the extended reals.

  The projection kernel stores three 1024 × 64 blocks from a 1024 × 1024 block of tokens and the three weight
  matrices: the query block (each entry the row-by-column sum over the 1024 features, times 0.125), the key block
  (the same sum times the row's mask entry, a 1024 × 1 column broadcast along the 64 channels) and the value
  block (the sum alone). The attention kernel stores one 512 × 64 block from a 512 × 64 block of queries and the
  whole 4096 × 64 key and value arrays: entry (p, d) is `attnRow` of row p of the 512 × 4096 score matrix (each score
  the sum over the 64 channels of query times key) against column d of the values — the row maximum is a fold of
  `max` from -∞ over the row, kept as a column and broadcast back along the row, likewise the row sum of the
  exponentials, and the last product is an ordinary matrix product.
-/
import proofs.«165219_j7421703487580_2_alg».proof.Proof.Gen.KernelIdeal.Skeleton
import proofs.«165219_j7421703487580_2_alg».proof.Proof.AttnSpec
import proofs.«165219_j7421703487580_2_alg».proof.Proof.LibPlainMatmul
import Idealize.ShloMosaic.Lib.Pipeline.Value
import Idealize.ShloMosaic.Lib.ValueIdx
import Idealize.ShloMosaic.PureOps.Ideal.Laws

noncomputable section

namespace Cert.KernelIdeal.Payloads

open Cert.KernelIdeal Cert.KernelIdeal.Gen Idealize.ShloMosaic Idealize.ShloMosaic.ValueIdx Cert.AttnSpec

/-! ## The projection kernel -/

/-- The query block: rows of the token block against the query weights, times 0.125. -/
theorem pay_q (x0 : Vec Ideal S1024x1024 .f32) (x1 : Vec Ideal S1024x64 .f32) (p : Fin 1024) (d : Fin 64) :
    k0_pay1 (F := Ideal) x0 x1 (ix2 p d) = (∑ e : Fin 1024, x0 (ix2 p e) * x1 (ix2 e d)) * c8 := by
  unfold k0_pay1
  exact congrArg (· * c8) (PlainMatmul.matmul_zero_apply 1024 1024 64 none x0 x1 p d)

/-- A 1024 × 1 column broadcast along the 64 channels reads, at (p, d), the column's entry p. -/
theorem col_bcast_1024 (v : FVec Ideal S1024x1 .f32) (h : S1024x1.Broadcasts S1024x64) (p : Fin 1024) (d : Fin 64) :
    broadcastTo S1024x64 v h (ix2 p d) = v (ix2 p 0) :=
  broadcastTo_apply v h (ix2 p d) (ix2 p 0) (fun a => match a with
    | ⟨0, _⟩ => by show p.val = if (1024 : Nat) = 1 then 0 else p.val; rw [if_neg (by decide)]
    | ⟨1, _⟩ => by show (0 : Nat) = if (1 : Nat) = 1 then 0 else d.val; rw [if_pos rfl])

/-- The key block: rows of the token block against the key weights, times the row's mask entry. -/
theorem pay_k (x0 : Vec Ideal S1024x1024 .f32) (x2 : Vec Ideal S1024x64 .f32) (x4 : Vec Ideal S1024x1 .f32) (p : Fin 1024) (d : Fin 64) :
    k0_pay2 (F := Ideal) x0 x2 x4 (ix2 p d) = (∑ e : Fin 1024, x0 (ix2 p e) * x2 (ix2 e d)) * x4 (ix2 p 0) := by
  unfold k0_pay2
  rw [shapeCast_self]
  show matmul (F := Ideal) dot_S1024x1024_S1024x64_S1024x64_1_0_0_1_n_n none x0 x2 (constant (F := Ideal) S1024x64 .f32 0x00000000#32) (ix2 p d)
      * broadcastTo S1024x64 x4 broadcasts_S1024x1_S1024x64 (ix2 p d) = _
  rw [col_bcast_1024]
  exact congrArg (· * x4 (ix2 p 0)) (PlainMatmul.matmul_zero_apply 1024 1024 64 none x0 x2 p d)

/-- The value block: rows of the token block against the value weights. -/
theorem pay_v (x0 : Vec Ideal S1024x1024 .f32) (x3 : Vec Ideal S1024x64 .f32) (p : Fin 1024) (d : Fin 64) :
    k0_pay3 (F := Ideal) x0 x3 (ix2 p d) = ∑ e : Fin 1024, x0 (ix2 p e) * x3 (ix2 e d) := by
  unfold k0_pay3
  exact PlainMatmul.matmul_zero_apply 1024 1024 64 none x0 x3 p d

end Cert.KernelIdeal.Payloads

end
-- ==== Proof.Region0.lean ====
/-
  The projection kernel's three result arrays, each as one function of the arrays the region finds on entry.

  The grid has four points; point t stages rows 1024·t … 1024·t + 1023 of the tokens and of the mask column, the
  three weight matrices whole, and writes back rows 1024·t … of each of the three results. So element (p, ·) of a
  block at point t is element (1024·t + p, ·) of its array, the four output blocks tile each 4096 × 64 result, and
  the result arrays end holding: the query projection times 0.125; the key projection times the row's entry of the
  mask column; the value projection.
-/
import proofs.«165219_j7421703487580_2_alg».proof.Proof.Gen.KernelIdeal.Frame
import proofs.«165219_j7421703487580_2_alg».proof.Proof.Payloads
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.SL.Sem
open Idealize.ShloMosaic.Pipeline (Dat)
open Idealize.ShloMosaic.ValueIdx Cert.AttnSpec Cert.KernelIdeal.Payloads

variable (V : (c : Dev nD) → (b : Ref sig .tc) → Buf (Elt Ideal) ((c : Thread nD τ).loc b))

/-- The scaled query projection, the masked key projection (the mask as a 4096 × 1 column) and the value projection. -/
def Qarr (X : S4096x1024.Idx → EReal) (W : S1024x64.Idx → EReal) : S4096x64.Idx → EReal :=
  fun i => proj X W (i 0) (i 1) * c8
def Karr (X : S4096x1024.Idx → EReal) (W : S1024x64.Idx → EReal) (Mc : S4096x1.Idx → EReal) : S4096x64.Idx → EReal :=
  fun i => proj X W (i 0) (i 1) * Mc (ix2 (i 0) 0)
def Varr (X : S4096x1024.Idx → EReal) (W : S1024x64.Idx → EReal) : S4096x64.Idx → EReal :=
  fun i => proj X W (i 0) (i 1)

theorem hz : (![0, 0] : Fin 2 → Nat) = fun _ => 0 := funext fun a => by fin_cases a <;> rfl

/-- The printed index maps over the four points: the token, mask-column and result windows move down one block of
    rows per point; the weight windows stay. -/
theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

/-- Row p of the block at point t is row 1024·t + p of the array. -/
def row (t : Fin cfg0.N) (p : Fin 1024) : Fin 4096 :=
  ⟨t.val * 1024 + p.val, by have h : t.val < 4 := lt_of_lt_of_eq t.isLt N_0; have := p.isLt; omega⟩

/-! ## The input blocks, read at an index -/

theorem blk_tok (c : Dev nD) (t : Fin cfg0.N) (p : Fin 1024) (e : Fin 1024) :
    (iblk0 V c 0 t : Vec Ideal S1024x1024 .f32) (ix2 p e) = (V c main_arg0 : S4096x1024.Idx → EReal) (ix2 (row t p) e) := by
  obtain ⟨⟨h0, h1⟩, -⟩ := idx_facts t
  show V c main_arg0 (((cfg0.win 0).blk t).view.emb (ix2 p e)) = _
  refine congrArg (V c main_arg0) (funext fun a => Fin.ext ?_)
  match a with
  | ⟨0, _⟩ => show win0_0.index t (0 : Fin 2) * 1024 + 1 * p.val = t.val * 1024 + p.val; rw [h0]; omega
  | ⟨1, _⟩ => show win0_0.index t (1 : Fin 2) * 1024 + 1 * e.val = e.val; rw [h1]; omega

theorem blk_wq (c : Dev nD) (t : Fin cfg0.N) (e : Fin 1024) (d : Fin 64) :
    (iblk0 V c 1 t : Vec Ideal S1024x64 .f32) (ix2 e d) = (V c main_arg2 : S1024x64.Idx → EReal) (ix2 e d) := by
  obtain ⟨-, ⟨h0, h1⟩, -⟩ := idx_facts t
  show V c main_arg2 (((cfg0.win 1).blk t).view.emb (ix2 e d)) = _
  refine congrArg (V c main_arg2) (funext fun a => Fin.ext ?_)
  match a with
  | ⟨0, _⟩ => show win0_1.index t (0 : Fin 2) * 1024 + 1 * e.val = e.val; rw [h0]; omega
  | ⟨1, _⟩ => show win0_1.index t (1 : Fin 2) * 64 + 1 * d.val = d.val; rw [h1]; omega

theorem blk_wk (c : Dev nD) (t : Fin cfg0.N) (e : Fin 1024) (d : Fin 64) :
    (iblk0 V c 2 t : Vec Ideal S1024x64 .f32) (ix2 e d) = (V c main_arg3 : S1024x64.Idx → EReal) (ix2 e d) := by
  obtain ⟨-, -, ⟨h0, h1⟩, -⟩ := idx_facts t
  show V c main_arg3 (((cfg0.win 2).blk t).view.emb (ix2 e d)) = _
  refine congrArg (V c main_arg3) (funext fun a => Fin.ext ?_)
  match a with
  | ⟨0, _⟩ => show win0_2.index t (0 : Fin 2) * 1024 + 1 * e.val = e.val; rw [h0]; omega
  | ⟨1, _⟩ => show win0_2.index t (1 : Fin 2) * 64 + 1 * d.val = d.val; rw [h1]; omega

theorem blk_wv (c : Dev nD) (t : Fin cfg0.N) (e : Fin 1024) (d : Fin 64) :
    (iblk0 V c 3 t : Vec Ideal S1024x64 .f32) (ix2 e d) = (V c main_arg4 : S1024x64.Idx → EReal) (ix2 e d) := by
  obtain ⟨-, -, -, ⟨h0, h1⟩, -⟩ := idx_facts t
  show V c main_arg4 (((cfg0.win 3).blk t).view.emb (ix2 e d)) = _
  refine congrArg (V c main_arg4) (funext fun a => Fin.ext ?_)
  match a with
  | ⟨0, _⟩ => show win0_3.index t (0 : Fin 2) * 1024 + 1 * e.val = e.val; rw [h0]; omega
  | ⟨1, _⟩ => show win0_3.index t (1 : Fin 2) * 64 + 1 * d.val = d.val; rw [h1]; omega

theorem blk_mask (c : Dev nD) (t : Fin cfg0.N) (p : Fin 1024) :
    (iblk0 V c 4 t : Vec Ideal S1024x1 .f32) (ix2 p 0) = (V c main_v0 : S4096x1.Idx → EReal) (ix2 (row t p) 0) := by
  obtain ⟨-, -, -, -, ⟨h0, h1⟩, -⟩ := idx_facts t
  show V c main_v0 (((cfg0.win 4).blk t).view.emb (ix2 p 0)) = _
  refine congrArg (V c main_v0) (funext fun a => Fin.ext ?_)
  match a with
  | ⟨0, _⟩ => show win0_4.index t (0 : Fin 2) * 1024 + 1 * p.val = t.val * 1024 + p.val; rw [h0]; omega
  | ⟨1, _⟩ => show win0_4.index t (1 : Fin 2) * 1 + 1 * 0 = 0; rw [h1]

/-! ## The output blocks' places in their arrays -/

theorem emb_q (t : Fin cfg0.N) (p : Fin 1024) (d : Fin 64) :
    ((cfg0.win 5).blk t).view.emb (ix2 p d) = (ix2 (row t p) d : S4096x64.Idx) := by
  obtain ⟨-, -, -, -, -, ⟨h0, h1⟩, -⟩ := idx_facts t
  refine funext fun a => Fin.ext ?_
  match a with
  | ⟨0, _⟩ => show win0_5.index t (0 : Fin 2) * 1024 + 1 * p.val = t.val * 1024 + p.val; rw [h0]; omega
  | ⟨1, _⟩ => show win0_5.index t (1 : Fin 2) * 64 + 1 * d.val = d.val; rw [h1]; omega

theorem emb_k (t : Fin cfg0.N) (p : Fin 1024) (d : Fin 64) :
    ((cfg0.win 6).blk t).view.emb (ix2 p d) = (ix2 (row t p) d : S4096x64.Idx) := by
  obtain ⟨-, -, -, -, -, -, ⟨h0, h1⟩, -⟩ := idx_facts t
  refine funext fun a => Fin.ext ?_
  match a with
  | ⟨0, _⟩ => show win0_6.index t (0 : Fin 2) * 1024 + 1 * p.val = t.val * 1024 + p.val; rw [h0]; omega
  | ⟨1, _⟩ => show win0_6.index t (1 : Fin 2) * 64 + 1 * d.val = d.val; rw [h1]; omega

theorem emb_v (t : Fin cfg0.N) (p : Fin 1024) (d : Fin 64) :
    ((cfg0.win 7).blk t).view.emb (ix2 p d) = (ix2 (row t p) d : S4096x64.Idx) := by
  obtain ⟨-, -, -, -, -, -, -, ⟨h0, h1⟩⟩ := idx_facts t
  refine funext fun a => Fin.ext ?_
  match a with
  | ⟨0, _⟩ => show win0_7.index t (0 : Fin 2) * 1024 + 1 * p.val = t.val * 1024 + p.val; rw [h0]; omega
  | ⟨1, _⟩ => show win0_7.index t (1 : Fin 2) * 64 + 1 * d.val = d.val; rw [h1]; omega

/-! ## What each point writes back is its block of the whole-array function -/

theorem flushed_q (c : Dev nD) (t : Fin cfg0.N) :
    (dat0 V c).flushed 5 t = ((cfg0.win 5).blk t).view.read (Elt Ideal) (Qarr (V c main_arg0) (V c main_arg2)) := by
  show (cfg0.win 5).cut (grid0.coords t) ((dat0 V c).after 5 t) = _
  rw [after0_5]
  unfold out0_5
  rw [View.canon_unit_zero hz]
  simp only [View.ld_unit_zero (S := S1024x1024) hz, View.ld_unit_zero (S := S1024x64) hz]
  funext j
  obtain ⟨p, d, rfl⟩ : ∃ (p : Fin 1024) (d : Fin 64), j = ix2 p d := ⟨j 0, j 1, eq_ix2 j⟩
  show k0_pay1 (F := Ideal) (iblk0 V c 0 t) (iblk0 V c 1 t) (ix2 p d)
      = Qarr (V c main_arg0) (V c main_arg2) (((cfg0.win 5).blk t).view.emb (ix2 p d))
  refine (pay_q _ _ p d).trans ?_
  rw [emb_q t p d]
  unfold Qarr proj
  refine congrArg (· * c8) (Finset.sum_congr rfl fun e _ => ?_)
  rw [blk_tok V c t p e, blk_wq V c t e d]

theorem flushed_k (c : Dev nD) (t : Fin cfg0.N) :
    (dat0 V c).flushed 6 t = ((cfg0.win 6).blk t).view.read (Elt Ideal) (Karr (V c main_arg0) (V c main_arg3) (V c main_v0)) := by
  show (cfg0.win 6).cut (grid0.coords t) ((dat0 V c).after 6 t) = _
  rw [after0_6]
  unfold out0_6
  rw [View.canon_unit_zero hz]
  simp only [View.ld_unit_zero (S := S1024x1024) hz, View.ld_unit_zero (S := S1024x64) hz, View.ld_unit_zero (S := S1024x1) hz]
  funext j
  obtain ⟨p, d, rfl⟩ : ∃ (p : Fin 1024) (d : Fin 64), j = ix2 p d := ⟨j 0, j 1, eq_ix2 j⟩
  show k0_pay2 (F := Ideal) (iblk0 V c 0 t) (iblk0 V c 2 t) (iblk0 V c 4 t) (ix2 p d)
      = Karr (V c main_arg0) (V c main_arg3) (V c main_v0) (((cfg0.win 6).blk t).view.emb (ix2 p d))
  refine (pay_k _ _ _ p d).trans ?_
  rw [emb_k t p d, blk_mask V c t p]
  unfold Karr proj
  refine congrArg (· * (V c main_v0 : S4096x1.Idx → EReal) (ix2 (row t p) 0)) (Finset.sum_congr rfl fun e _ => ?_)
  rw [blk_tok V c t p e, blk_wk V c t e d]

theorem flushed_v (c : Dev nD) (t : Fin cfg0.N) :
    (dat0 V c).flushed 7 t = ((cfg0.win 7).blk t).view.read (Elt Ideal) (Varr (V c main_arg0) (V c main_arg4)) := by
  show (cfg0.win 7).cut (grid0.coords t) ((dat0 V c).after 7 t) = _
  rw [after0_7]
  unfold out0_7
  rw [View.canon_unit_zero hz]
  simp only [View.ld_unit_zero (S := S1024x1024) hz, View.ld_unit_zero (S := S1024x64) hz]
  funext j
  obtain ⟨p, d, rfl⟩ : ∃ (p : Fin 1024) (d : Fin 64), j = ix2 p d := ⟨j 0, j 1, eq_ix2 j⟩
  show k0_pay3 (F := Ideal) (iblk0 V c 0 t) (iblk0 V c 3 t) (ix2 p d)
      = Varr (V c main_arg0) (V c main_arg4) (((cfg0.win 7).blk t).view.emb (ix2 p d))
  refine (pay_v _ _ p d).trans ?_
  rw [emb_v t p d]
  unfold Varr proj
  refine Finset.sum_congr rfl fun e _ => ?_
  rw [blk_tok V c t p e, blk_wv V c t e d]

/-! ## The four blocks of rows tile each result -/

/-- The point whose block holds row r. -/
def pointOf (i : S4096x64.Idx) : Fin cfg0.N :=
  ⟨(i 0).val / 1024, by rw [show cfg0.N = 4 from N_0]; have : (i 0).val < 4096 := (i 0).isLt; omega⟩

theorem cover_q (i : S4096x64.Idx) : ∃ t : Fin cfg0.N, (cfg0.win 5).flush t = true ∧ i ∈ ((cfg0.win 5).blk t).view.set := by
  obtain ⟨-, -, -, -, -, ⟨h0, h1⟩, -⟩ := idx_facts (pointOf i)
  have ht : (pointOf i).val = (i 0).val / 1024 := rfl
  have hi0 : (i 0).val < 4096 := (i 0).isLt
  have hi1 : (i 1).val < 64 := (i 1).isLt
  refine ⟨pointOf i, flush0_5 _, ?_⟩
  show i ∈ ((View.whole main_v1_0).slice (win0_5.rect (pointOf i))).set
  rw [View.set_slice_whole, Rect.mem_set_unit]
  intro a
  match a with
  | ⟨0, _⟩ => show win0_5.index (pointOf i) (0 : Fin 2) * 1024 ≤ (i 0).val ∧ (i 0).val < win0_5.index (pointOf i) (0 : Fin 2) * 1024 + 1024; rw [h0, ht]; omega
  | ⟨1, _⟩ => show win0_5.index (pointOf i) (1 : Fin 2) * 64 ≤ (i 1).val ∧ (i 1).val < win0_5.index (pointOf i) (1 : Fin 2) * 64 + 64; rw [h1]; omega

theorem cover_k (i : S4096x64.Idx) : ∃ t : Fin cfg0.N, (cfg0.win 6).flush t = true ∧ i ∈ ((cfg0.win 6).blk t).view.set := by
  obtain ⟨-, -, -, -, -, -, ⟨h0, h1⟩, -⟩ := idx_facts (pointOf i)
  have ht : (pointOf i).val = (i 0).val / 1024 := rfl
  have hi0 : (i 0).val < 4096 := (i 0).isLt
  have hi1 : (i 1).val < 64 := (i 1).isLt
  refine ⟨pointOf i, flush0_6 _, ?_⟩
  show i ∈ ((View.whole main_v1_1).slice (win0_6.rect (pointOf i))).set
  rw [View.set_slice_whole, Rect.mem_set_unit]
  intro a
  match a with
  | ⟨0, _⟩ => show win0_6.index (pointOf i) (0 : Fin 2) * 1024 ≤ (i 0).val ∧ (i 0).val < win0_6.index (pointOf i) (0 : Fin 2) * 1024 + 1024; rw [h0, ht]; omega
  | ⟨1, _⟩ => show win0_6.index (pointOf i) (1 : Fin 2) * 64 ≤ (i 1).val ∧ (i 1).val < win0_6.index (pointOf i) (1 : Fin 2) * 64 + 64; rw [h1]; omega

theorem cover_v (i : S4096x64.Idx) : ∃ t : Fin cfg0.N, (cfg0.win 7).flush t = true ∧ i ∈ ((cfg0.win 7).blk t).view.set := by
  obtain ⟨-, -, -, -, -, -, -, ⟨h0, h1⟩⟩ := idx_facts (pointOf i)
  have ht : (pointOf i).val = (i 0).val / 1024 := rfl
  have hi0 : (i 0).val < 4096 := (i 0).isLt
  have hi1 : (i 1).val < 64 := (i 1).isLt
  refine ⟨pointOf i, flush0_7 _, ?_⟩
  show i ∈ ((View.whole main_v1_2).slice (win0_7.rect (pointOf i))).set
  rw [View.set_slice_whole, Rect.mem_set_unit]
  intro a
  match a with
  | ⟨0, _⟩ => show win0_7.index (pointOf i) (0 : Fin 2) * 1024 ≤ (i 0).val ∧ (i 0).val < win0_7.index (pointOf i) (0 : Fin 2) * 1024 + 1024; rw [h0, ht]; omega
  | ⟨1, _⟩ => show win0_7.index (pointOf i) (1 : Fin 2) * 64 ≤ (i 1).val ∧ (i 1).val < win0_7.index (pointOf i) (1 : Fin 2) * 64 + 64; rw [h1]; omega

/-! ## The three result arrays after the region -/

theorem arr_q (c : Dev nD) : (dat0 V c).arrAt 5 cfg0.N = Qarr (V c main_arg0) (V c main_arg2) :=
  (dat0 V c).arrAt_eq_of_cover 5 (Qarr (V c main_arg0) (V c main_arg2)) (fun t _ => flushed_q V c t) cover_q

theorem arr_k (c : Dev nD) : (dat0 V c).arrAt 6 cfg0.N = Karr (V c main_arg0) (V c main_arg3) (V c main_v0) :=
  (dat0 V c).arrAt_eq_of_cover 6 (Karr (V c main_arg0) (V c main_arg3) (V c main_v0)) (fun t _ => flushed_k V c t) cover_k

theorem arr_v (c : Dev nD) : (dat0 V c).arrAt 7 cfg0.N = Varr (V c main_arg0) (V c main_arg4) :=
  (dat0 V c).arrAt_eq_of_cover 7 (Varr (V c main_arg0) (V c main_arg4)) (fun t _ => flushed_v V c t) cover_v

end Cert.KernelIdeal.Region0

end
-- ==== Proof.PayAttn.lean ====
/-
  The attention kernel's one store, read at one index, on the extended reals.

  From a 512 × 64 block of (scaled) queries and the whole 4096 × 64 (masked) key and value arrays the body forms
  the 512 × 4096 score block — entry (p, k) the sum over the 64 channels of query p times key k: a product that
  contracts the SECOND axis of both operands —, takes each row's maximum (a fold of `max` from -∞ along the row,
  kept as a 512 × 1 column and broadcast back along the row), exponentiates the differences, divides by each row's sum
  of exponentials (kept and broadcast the same way) and multiplies by the values, an ordinary matrix product. So
  entry (p, d) of the stored block is `attnRow` of row p of the scores against column d of the values.
-/
import proofs.«165219_j7421703487580_2_alg».proof.Proof.Gen.KernelIdeal.Skeleton
import proofs.«165219_j7421703487580_2_alg».proof.Proof.AttnSpec
import proofs.«165219_j7421703487580_2_alg».proof.Proof.LibPlainMatmul
import Idealize.ShloMosaic.Lib.Pipeline.Value
import Idealize.ShloMosaic.Lib.ValueIdx
import Idealize.ShloMosaic.PureOps.Ideal.Laws

noncomputable section

namespace Cert.KernelIdeal.PayAttn

open Cert.KernelIdeal Cert.KernelIdeal.Gen Idealize.ShloMosaic Idealize.ShloMosaic.ValueIdx Cert.AttnSpec

/-! ## Queries against keys: both operands contracted along their channel axis -/

/-- The dimension numbers of `q · kᵀ`. -/
abbrev DQK : DotDims S512x64 S4096x64 S512x4096 := dot_S512x64_S4096x64_S512x4096_1_1_0_0_n_n

theorem qk_lhs0 (i : S512x4096.Idx) (q : DQK.contr.Idx) : (DQK.lhsIdx i q 0).val = (i 0).val := by
  unfold DotDims.lhsIdx
  rw [dif_neg (show ¬(0 : Fin S512x64.rank) ∈ DQK.lhsBatch by decide), dif_pos (show (0 : Fin S512x64.rank) ∈ DQK.lhsNonContracting by decide)]
  rfl
theorem qk_lhs1 (i : S512x4096.Idx) (q : DQK.contr.Idx) : (DQK.lhsIdx i q 1).val = (q ⟨0, by decide⟩).val :=
  DQK.lhsIdx_val_of_single rfl i q
theorem qk_rhs0 (i : S512x4096.Idx) (q : DQK.contr.Idx) : (DQK.rhsIdx i q 0).val = (i 1).val := by
  unfold DotDims.rhsIdx
  rw [dif_neg (show ¬(0 : Fin S4096x64.rank) ∈ DQK.rhsBatch by decide), dif_pos (show (0 : Fin S4096x64.rank) ∈ DQK.rhsNonContracting by decide)]
  rfl
theorem qk_rhs1 (i : S512x4096.Idx) (q : DQK.contr.Idx) : (DQK.rhsIdx i q 1).val = (q ⟨0, by decide⟩).val :=
  DQK.rhsIdx_val_of_single rfl i q

/-- The score of query p against key k, into the zero accumulator: the sum over the 64 channels. -/
theorem qk_apply (x0 : FVec Ideal S512x64 .f32) (x2 : FVec Ideal S4096x64 .f32) (p : Fin 512) (k : Fin 4096) :
    matmul DQK none x0 x2 (constant (F := Ideal) S512x4096 .f32 0x00000000#32) (ix2 p k)
      = ∑ d' : Fin 64, x0 (ix2 p d') * x2 (ix2 k d') := by
  show FloatOps.matmul DQK none x0 x2 (constant (F := Ideal) S512x4096 .f32 0x00000000#32) (ix2 p k) = _
  rw [Ideal.matmul_constant_zero_apply, ← Equiv.sum_comp (contrEquiv1 DQK 64 rfl rfl).symm]
  refine Finset.sum_congr rfl fun d' _ => ?_
  have hk := contrEquiv1_symm_val DQK 64 rfl rfl d'
  have el : DQK.lhsIdx (ix2 p k) ((contrEquiv1 DQK 64 rfl rfl).symm d') = ix2 p d' := funext fun a => Fin.ext (by
    match a with
    | ⟨0, _⟩ => exact qk_lhs0 _ _
    | ⟨1, _⟩ => exact (qk_lhs1 _ _).trans hk)
  have er : DQK.rhsIdx (ix2 p k) ((contrEquiv1 DQK 64 rfl rfl).symm d') = ix2 k d' := funext fun a => Fin.ext (by
    match a with
    | ⟨0, _⟩ => exact qk_rhs0 _ _
    | ⟨1, _⟩ => exact (qk_rhs1 _ _).trans hk)
  rw [el, er]

/-! ## A row statistic kept as a column and broadcast back along the row -/

/-- A length-512 vector cast to a 512 × 1 column reads, at (p, 0), the vector's entry p. -/
theorem col_cast (v : FVec Ideal S512 .f32) (h : S512.ShapeCasts S512x1) (p : Fin 512) :
    shapeCast S512x1 v h (ix2 p 0) = v (ix1 p) :=
  shapeCast_apply v h (ix2 p 0) (ix1 p) (by
    rw [Shape.rowMajor_val_one, Shape.rowMajor_val_two]
    show p.val = p.val * 1 + 0
    omega)

/-- A 512 × 1 column broadcast along a row of 4096 reads, at (p, k), the column's entry p. -/
theorem col_bcast (v : FVec Ideal S512x1 .f32) (h : S512x1.Broadcasts S512x4096) (p : Fin 512) (k : Fin 4096) :
    broadcastTo S512x4096 v h (ix2 p k) = v (ix2 p 0) :=
  broadcastTo_apply v h (ix2 p k) (ix2 p 0) (fun a => match a with
    | ⟨0, _⟩ => by show p.val = if (512 : Nat) = 1 then 0 else p.val; rw [if_neg (by decide)]
    | ⟨1, _⟩ => by show (0 : Nat) = if (1 : Nat) = 1 then 0 else k.val; rw [if_pos rfl])

/-- Row p with coordinate k inserted on the reduced axis is the index (p, k). -/
theorem lift_row (h : S512x4096.Reduces [1] S512) (p : Fin 512) (k : Fin 4096) : h.lift (ix1 p) k = ix2 p k :=
  funext fun a => Fin.ext (by match a with | ⟨0, _⟩ => rfl | ⟨1, _⟩ => rfl)

/-- The maximum along a row, from -∞. -/
theorem rowmax_apply (s : FVec Ideal S512x4096 .f32) (h : S512x4096.Reduces [1] S512) (hφ : FKind.Formats .f32)
    (hacc : (0xFF800000#32 : BitVec 32) = FKind.maximumf.neutral .f32 hφ) (p : Fin 512) :
    multiReduction .maximumf [1] S512 s 0xFF800000#32 h hφ hacc (ix1 p) = rowMax (fun k => s (ix2 p k)) := by
  refine (Ideal.multiReduction_maximumf_single s 0xFF800000#32 h hφ hacc (ix1 p)).trans ?_
  unfold rowMax negInf
  refine congrArg (fun f => (Finset.univ : Finset (Fin 4096)).fold max (Ideal.ofBits .f32 0xFF800000#32) f) (funext fun k => ?_)
  exact congrArg s (lift_row h p k)

/-- The sum along a row. -/
theorem rowsum_apply (s : FVec Ideal S512x4096 .f32) (h : S512x4096.Reduces [1] S512) (hφ : FKind.Formats .f32)
    (hacc : (0x00000000#32 : BitVec 32) = FKind.add.neutral .f32 hφ) (p : Fin 512) :
    multiReduction .add [1] S512 s 0x00000000#32 h hφ hacc (ix1 p) = ∑ k : Fin 4096, s (ix2 p k) := by
  refine (Ideal.multiReduction_add_single s 0x00000000#32 h hφ hacc (ix1 p)).trans ?_
  exact Finset.sum_congr rfl fun k _ => congrArg s (lift_row h p k)

/-! ## The softmax weights of a score block, in the body's own operations -/

/-- Each row's maximum, broadcast back along the row. -/
def mx (S : FVec Ideal S512x4096 .f32) : FVec Ideal S512x4096 .f32 :=
  broadcastTo S512x4096 (shapeCast S512x1 (multiReduction .maximumf [1] S512 S 0xFF800000#32 reduces_S512x4096_S512 (.inl rfl) rfl)
    shapeCasts_S512_S512x1) broadcasts_S512x1_S512x4096

/-- The exponentials of the scores less their row's maximum. -/
def ex (S : FVec Ideal S512x4096 .f32) : FVec Ideal S512x4096 .f32 := exp (subf S (mx S))

/-- Each row's sum of exponentials, broadcast back along the row. -/
def sm (S : FVec Ideal S512x4096 .f32) : FVec Ideal S512x4096 .f32 :=
  broadcastTo S512x4096 (shapeCast S512x1 (multiReduction .add [1] S512 (ex S) 0x00000000#32 reduces_S512x4096_S512 (.inl rfl) rfl)
    shapeCasts_S512_S512x1) broadcasts_S512x1_S512x4096

/-- The weights. -/
def wts (S : FVec Ideal S512x4096 .f32) : FVec Ideal S512x4096 .f32 := divf (ex S) (sm S)

theorem mx_apply (S : FVec Ideal S512x4096 .f32) (p : Fin 512) (k : Fin 4096) :
    mx S (ix2 p k) = rowMax (fun k => S (ix2 p k)) := by
  unfold mx
  exact (col_bcast _ _ p k).trans ((col_cast _ _ p).trans (rowmax_apply S _ _ _ p))

theorem ex_apply (S : FVec Ideal S512x4096 .f32) (p : Fin 512) (k : Fin 4096) :
    ex S (ix2 p k) = Ideal.exp (S (ix2 p k) - rowMax (fun k => S (ix2 p k))) := by
  unfold ex
  exact congrArg (fun m => Ideal.exp (S (ix2 p k) - m)) (mx_apply S p k)

theorem sm_apply (S : FVec Ideal S512x4096 .f32) (p : Fin 512) (k : Fin 4096) :
    sm S (ix2 p k) = ∑ k' : Fin 4096, Ideal.exp (S (ix2 p k') - rowMax (fun k => S (ix2 p k))) := by
  unfold sm
  refine (col_bcast _ _ p k).trans ((col_cast _ _ p).trans ((rowsum_apply (ex S) _ _ _ p).trans ?_))
  exact Finset.sum_congr rfl fun k' _ => ex_apply S p k'

theorem wts_apply (S : FVec Ideal S512x4096 .f32) (p : Fin 512) (k : Fin 4096) :
    wts S (ix2 p k) = Ideal.div (Ideal.exp (S (ix2 p k) - rowMax (fun k => S (ix2 p k))))
      (∑ k' : Fin 4096, Ideal.exp (S (ix2 p k') - rowMax (fun k => S (ix2 p k)))) := by
  unfold wts
  show Ideal.div (ex S (ix2 p k)) (sm S (ix2 p k)) = _
  rw [ex_apply, sm_apply]

/-! ## The store -/

/-- The stored block is the weights of the score block against the values. -/
theorem k1_pay1_eq (x0 : FVec Ideal S512x64 .f32) (x2 x4 : FVec Ideal S4096x64 .f32) :
    k1_pay1 (F := Ideal) x0 x2 x4
      = matmul dot_S512x4096_S4096x64_S512x64_1_0_0_1_n_n none
          (wts (matmul DQK none x0 x2 (constant (F := Ideal) S512x4096 .f32 0x00000000#32))) x4
          (constant (F := Ideal) S512x64 .f32 0x00000000#32) := by
  unfold k1_pay1 wts sm ex mx
  rw [shapeCast_self, shapeCast_self, shapeCast_self]

/-- Entry (p, d) of the stored block. -/
theorem pay_attn (x0 : FVec Ideal S512x64 .f32) (x2 x4 : FVec Ideal S4096x64 .f32) (p : Fin 512) (d : Fin 64) :
    k1_pay1 (F := Ideal) x0 x2 x4 (ix2 p d)
      = attnRow (fun k => ∑ d' : Fin 64, x0 (ix2 p d') * x2 (ix2 k d')) (fun k => x4 (ix2 k d)) := by
  rw [k1_pay1_eq]
  refine (PlainMatmul.matmul_zero_apply 512 4096 64 none _ x4 p d).trans ?_
  unfold attnRow
  refine Finset.sum_congr rfl fun k _ => congrArg (· * x4 (ix2 k d)) ?_
  rw [wts_apply]
  simp only [qk_apply]

end Cert.KernelIdeal.PayAttn

end
-- ==== Proof.Region1.lean ====
/-
  The attention kernel's result array as one function of the arrays the region finds on entry.

  The grid has eight points; point t stages rows 512·t … 512·t + 511 of the query array, the key and value arrays
  whole, and writes back rows 512·t … of the result. So the eight output blocks tile the 4096 × 64 result, and entry
  (q, d) of it is `attnRow` of query q's scores against all 4096 keys (each the sum over the 64 channels of query
  times key) and column d of the values.
-/
import proofs.«165219_j7421703487580_2_alg».proof.Proof.Gen.KernelIdeal.Frame
import proofs.«165219_j7421703487580_2_alg».proof.Proof.PayAttn
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.SL.Sem
open Idealize.ShloMosaic.Pipeline (Dat)
open Idealize.ShloMosaic.ValueIdx Cert.AttnSpec Cert.KernelIdeal.PayAttn

variable (V : (c : Dev nD) → (b : Ref sig .tc) → Buf (Elt Ideal) ((c : Thread nD τ).loc b))

/-- Attention of a query array against a key array and a value array, all 4096 × 64. -/
def Oarr (Qa Ka Va : S4096x64.Idx → EReal) : S4096x64.Idx → EReal :=
  fun i => attnRow (fun k => ∑ d' : Fin 64, Qa (ix2 (i 0) d') * Ka (ix2 k d')) (fun k => Va (ix2 k (i 1)))

theorem hz : (![0, 0] : Fin 2 → Nat) = fun _ => 0 := funext fun a => by fin_cases a <;> rfl

/-- The printed index maps over the eight points: the query and result windows move down one block of rows per
    point; the key and value windows stay. -/
theorem idx_facts : ∀ t : Fin cfg1.N,
    (win1_0.index t (0 : Fin 2) = t.val ∧ win1_0.index t (1 : Fin 2) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = t.val ∧ win1_3.index t (1 : Fin 2) = 0) :=
  (by decide +kernel : ∀ t : Fin grid1.N, _)

/-- Row p of the block at point t is row 512·t + p of the array. -/
def row (t : Fin cfg1.N) (p : Fin 512) : Fin 4096 :=
  ⟨t.val * 512 + p.val, by have h : t.val < 8 := lt_of_lt_of_eq t.isLt N_1; have := p.isLt; omega⟩

/-! ## The input blocks, read at an index -/

theorem blk_qs (c : Dev nD) (t : Fin cfg1.N) (p : Fin 512) (d : Fin 64) :
    (iblk1 V c 0 t : Vec Ideal S512x64 .f32) (ix2 p d) = (V c main_v1_0 : S4096x64.Idx → EReal) (ix2 (row t p) d) := by
  obtain ⟨⟨h0, h1⟩, -⟩ := idx_facts t
  show V c main_v1_0 (((cfg1.win 0).blk t).view.emb (ix2 p d)) = _
  refine congrArg (V c main_v1_0) (funext fun a => Fin.ext ?_)
  match a with
  | ⟨0, _⟩ => show win1_0.index t (0 : Fin 2) * 512 + 1 * p.val = t.val * 512 + p.val; rw [h0]; omega
  | ⟨1, _⟩ => show win1_0.index t (1 : Fin 2) * 64 + 1 * d.val = d.val; rw [h1]; omega

theorem blk_ks (c : Dev nD) (t : Fin cfg1.N) (k : Fin 4096) (d : Fin 64) :
    (iblk1 V c 1 t : Vec Ideal S4096x64 .f32) (ix2 k d) = (V c main_v1_1 : S4096x64.Idx → EReal) (ix2 k d) := by
  obtain ⟨-, ⟨h0, h1⟩, -⟩ := idx_facts t
  show V c main_v1_1 (((cfg1.win 1).blk t).view.emb (ix2 k d)) = _
  refine congrArg (V c main_v1_1) (funext fun a => Fin.ext ?_)
  match a with
  | ⟨0, _⟩ => show win1_1.index t (0 : Fin 2) * 4096 + 1 * k.val = k.val; rw [h0]; omega
  | ⟨1, _⟩ => show win1_1.index t (1 : Fin 2) * 64 + 1 * d.val = d.val; rw [h1]; omega

theorem blk_vs (c : Dev nD) (t : Fin cfg1.N) (k : Fin 4096) (d : Fin 64) :
    (iblk1 V c 2 t : Vec Ideal S4096x64 .f32) (ix2 k d) = (V c main_v1_2 : S4096x64.Idx → EReal) (ix2 k d) := by
  obtain ⟨-, -, ⟨h0, h1⟩, -⟩ := idx_facts t
  show V c main_v1_2 (((cfg1.win 2).blk t).view.emb (ix2 k d)) = _
  refine congrArg (V c main_v1_2) (funext fun a => Fin.ext ?_)
  match a with
  | ⟨0, _⟩ => show win1_2.index t (0 : Fin 2) * 4096 + 1 * k.val = k.val; rw [h0]; omega
  | ⟨1, _⟩ => show win1_2.index t (1 : Fin 2) * 64 + 1 * d.val = d.val; rw [h1]; omega

/-! ## The output block's place in its array -/

theorem emb_o (t : Fin cfg1.N) (p : Fin 512) (d : Fin 64) :
    ((cfg1.win 3).blk t).view.emb (ix2 p d) = (ix2 (row t p) d : S4096x64.Idx) := by
  obtain ⟨-, -, -, ⟨h0, h1⟩⟩ := idx_facts t
  refine funext fun a => Fin.ext ?_
  match a with
  | ⟨0, _⟩ => show win1_3.index t (0 : Fin 2) * 512 + 1 * p.val = t.val * 512 + p.val; rw [h0]; omega
  | ⟨1, _⟩ => show win1_3.index t (1 : Fin 2) * 64 + 1 * d.val = d.val; rw [h1]; omega

/-! ## What each point writes back is its block of the whole-array function -/

theorem flushed_o (c : Dev nD) (t : Fin cfg1.N) :
    (dat1 V c).flushed 3 t = ((cfg1.win 3).blk t).view.read (Elt Ideal) (Oarr (V c main_v1_0) (V c main_v1_1) (V c main_v1_2)) := by
  show (cfg1.win 3).cut (grid1.coords t) ((dat1 V c).after 3 t) = _
  rw [after1_3]
  unfold out1_3
  rw [View.canon_unit_zero hz]
  simp only [View.ld_unit_zero (S := S512x64) hz, View.ld_unit_zero (S := S4096x64) hz]
  funext j
  obtain ⟨p, d, rfl⟩ : ∃ (p : Fin 512) (d : Fin 64), j = ix2 p d := ⟨j 0, j 1, eq_ix2 j⟩
  show k1_pay1 (F := Ideal) (iblk1 V c 0 t) (iblk1 V c 1 t) (iblk1 V c 2 t) (ix2 p d)
      = Oarr (V c main_v1_0) (V c main_v1_1) (V c main_v1_2) (((cfg1.win 3).blk t).view.emb (ix2 p d))
  refine (pay_attn _ _ _ p d).trans ?_
  rw [emb_o t p d]
  unfold Oarr
  refine congrArg₂ attnRow (funext fun k => Finset.sum_congr rfl fun d' _ => ?_) (funext fun k => ?_)
  · rw [blk_qs V c t p d', blk_ks V c t k d']
  · rw [blk_vs V c t k d]

/-! ## The eight blocks of rows tile the result -/

/-- The point whose block holds row r. -/
def pointOf (i : S4096x64.Idx) : Fin cfg1.N :=
  ⟨(i 0).val / 512, by rw [show cfg1.N = 8 from N_1]; have : (i 0).val < 4096 := (i 0).isLt; omega⟩

theorem cover_o (i : S4096x64.Idx) : ∃ t : Fin cfg1.N, (cfg1.win 3).flush t = true ∧ i ∈ ((cfg1.win 3).blk t).view.set := by
  obtain ⟨-, -, -, ⟨h0, h1⟩⟩ := idx_facts (pointOf i)
  have ht : (pointOf i).val = (i 0).val / 512 := rfl
  have hi0 : (i 0).val < 4096 := (i 0).isLt
  have hi1 : (i 1).val < 64 := (i 1).isLt
  refine ⟨pointOf i, flush1_3 _, ?_⟩
  show i ∈ ((View.whole main_v2).slice (win1_3.rect (pointOf i))).set
  rw [View.set_slice_whole, Rect.mem_set_unit]
  intro a
  match a with
  | ⟨0, _⟩ => show win1_3.index (pointOf i) (0 : Fin 2) * 512 ≤ (i 0).val ∧ (i 0).val < win1_3.index (pointOf i) (0 : Fin 2) * 512 + 512; rw [h0, ht]; omega
  | ⟨1, _⟩ => show win1_3.index (pointOf i) (1 : Fin 2) * 64 ≤ (i 1).val ∧ (i 1).val < win1_3.index (pointOf i) (1 : Fin 2) * 64 + 64; rw [h1]; omega

/-! ## The result array after the region -/

theorem arr_o (c : Dev nD) : (dat1 V c).arrAt 3 cfg1.N = Oarr (V c main_v1_0) (V c main_v1_1) (V c main_v1_2) :=
  (dat1 V c).arrAt_eq_of_cover 3 (Oarr (V c main_v1_0) (V c main_v1_1) (V c main_v1_2)) (fun t _ => flushed_o V c t) cover_o

end Cert.KernelIdeal.Region1

end
-- ==== Proof.KernelRun.lean ====
/-
  The idealized kernel program's run with its result array named, and that array as a function of the arguments.

  The program is a host reshape of the mask row into a column, then the projection kernel, then the attention
  kernel. Every weakly fair execution terminates with every unscoped buffer at the contents the fold through the
  three segments gives it; here that is read at the result buffer as well as at the arguments. The result buffer is the
  attention kernel's output array, which is `attnRow` over the arrays that region finds on entry; those are the
  projection kernel's three output arrays, which are the scaled query, masked key and value projections of what that
  region finds on entry; and those are the arguments as launched and the mask read as a column, whose entry (k, 0)
  is the mask's entry (0, k). Composed, the result is `outK` of the arguments.
-/
import proofs.«165219_j7421703487580_2_alg».proof.Proof.Gen.KernelIdeal.Frame
import proofs.«165219_j7421703487580_2_alg».proof.Proof.Region0
import proofs.«165219_j7421703487580_2_alg».proof.Proof.Region1
import Idealize.ShloMosaic.Lib.StableHlo.Run
import Idealize.ShloMosaic.Lib.Pipeline.Value

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

section AnyInstance

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at what the fold through the
    segments leaves there and the arguments as launched. -/
theorem run_named : θ_run defs (onTc (τ := τ) (main (F := F))) ⟨m, fun _ => 0, ρ⟩ (fun r => ∀ c : Dev nD,
      r.2.mem ((c.tc : Thread nD τ).loc main_v2) = W3 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v2 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

end AnyInstance

/-! ## The result array at the ideal instance, down to the arguments -/

open Idealize.ShloMosaic.ValueIdx Cert.AttnSpec Cert.KernelIdeal.Region0 Cert.KernelIdeal.Region1

variable (m : (ℓ : Loc nD τ sig) → Buf (Elt Ideal) ℓ) (ρ : Dev nD → PrngReg)

/-- The one host operation before the regions writes only the mask column: an argument is as launched when the
    projection kernel is entered. -/
theorem entry_arg0 (c : Dev nD) : V1 m ρ c main_arg0 = m ((c : Thread nD τ).loc main_arg0) := by
  show StableHlo.after hostOps0 (W0 m ρ c) (Proc.devRef .tc main_arg0) = _
  after_results
theorem entry_arg2 (c : Dev nD) : V1 m ρ c main_arg2 = m ((c : Thread nD τ).loc main_arg2) := by
  show StableHlo.after hostOps0 (W0 m ρ c) (Proc.devRef .tc main_arg2) = _
  after_results
theorem entry_arg3 (c : Dev nD) : V1 m ρ c main_arg3 = m ((c : Thread nD τ).loc main_arg3) := by
  show StableHlo.after hostOps0 (W0 m ρ c) (Proc.devRef .tc main_arg3) = _
  after_results
theorem entry_arg4 (c : Dev nD) : V1 m ρ c main_arg4 = m ((c : Thread nD τ).loc main_arg4) := by
  show StableHlo.after hostOps0 (W0 m ρ c) (Proc.devRef .tc main_arg4) = _
  after_results

/-- The mask column the projection kernel finds: entry (k, 0) is the mask row's entry (0, k). -/
theorem entry_mask (c : Dev nD) (k : Fin 4096) :
    (V1 m ρ c main_v0 : S4096x1.Idx → EReal) (ix2 k 0) = (m ((c : Thread nD τ).loc main_arg1) : S1x4096.Idx → EReal) (ix2 0 k) := by
  have e : (V1 m ρ c main_v0 : S4096x1.Idx → EReal)
      = shapeCast S4096x1 (m ((c : Thread nD τ).loc main_arg1) : S1x4096.Idx → EReal) shapeCasts_S1x4096_S4096x1 := by
    show StableHlo.after hostOps0 (W0 m ρ c) (Proc.devRef .tc main_v0) = _
    after_results
    rfl
  rw [e]
  exact shapeCast_apply _ _ (ix2 k 0) (ix2 0 k) (by
    rw [Shape.rowMajor_val_two, Shape.rowMajor_val_two]
    show 0 * 4096 + k.val = k.val * 1 + 0
    omega)

/-- The result buffer after the run is `outK` of the arguments. -/
theorem result (c : Dev nD) :
    W3 m ρ c (Proc.devRef .tc main_v2)
      = outK (m ((c : Thread nD τ).loc main_arg0)) (m ((c : Thread nD τ).loc main_arg1)) (m ((c : Thread nD τ).loc main_arg2))
          (m ((c : Thread nD τ).loc main_arg3)) (m ((c : Thread nD τ).loc main_arg4)) := by
  have hq : V2 m ρ c main_v1_0 = Qarr (V1 m ρ c main_arg0) (V1 m ρ c main_arg2) :=
    (W2_arr m ρ c 5).trans (arr_q (V1 m ρ) c)
  have hk : V2 m ρ c main_v1_1 = Karr (V1 m ρ c main_arg0) (V1 m ρ c main_arg3) (V1 m ρ c main_v0) :=
    (W2_arr m ρ c 6).trans (arr_k (V1 m ρ) c)
  have hv : V2 m ρ c main_v1_2 = Varr (V1 m ρ c main_arg0) (V1 m ρ c main_arg4) :=
    (W2_arr m ρ c 7).trans (arr_v (V1 m ρ) c)
  refine (W3_arr m ρ c 3).trans ((arr_o (V2 m ρ) c).trans ?_)
  rw [hq, hk, hv, entry_arg0, entry_arg2, entry_arg3, entry_arg4]
  funext i
  unfold Oarr Qarr Karr Varr outK scoreK
  refine congrArg₂ attnRow (funext fun k => Finset.sum_congr rfl fun d' _ => ?_) rfl
  show _ * (_ * (V1 m ρ c main_v0 : S4096x1.Idx → EReal) (ix2 k 0)) = _
  rw [entry_mask]

/-- The run, read: the result array at `outK` of the arguments, the arguments unchanged. -/
theorem run : θ_run defs (onTc (τ := τ) (main (F := Ideal))) ⟨m, fun _ => 0, ρ⟩ (fun r => ∀ c : Dev nD,
      r.2.mem ((c.tc : Thread nD τ).loc main_v2)
        = outK (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (result m ρ c), (h c).2⟩) (run_named m ρ)

end Cert.KernelIdeal.Run

end
-- ==== Proof.RefValue.lean ====
/-
  The reference's result array, read one operation at a time, is `outR` of the arguments.

  The host program projects the tokens three ways, multiplies the query projection by the transposed key projection
  (entry (q, k) the sum over the 64 channels), multiplies by the mask row broadcast down the rows, divides by the
  square root of 64, and takes a softmax along each row — the row's maximum (a fold of `max` from -∞ over the row,
  then once more `max` with -∞, which changes nothing), the exponentials of the differences, their row sum (from 0),
  the quotient — before the product with the value projection. Entry (q, d) is `attnRow` of row q of those scores
  against column d of the value projection.
-/
import proofs.«165219_j7421703487580_2_alg».proof.Proof.Gen.ReferenceIdeal.Read
import proofs.«165219_j7421703487580_2_alg».proof.Proof.AttnSpec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Cert.AttnSpec

variable (x0 : (⟨S4096x1024, .f32⟩ : BufTy).Contents (Elt Ideal)) (x1 : (⟨S1x4096, .f32⟩ : BufTy).Contents (Elt Ideal))
  (x2 x3 x4 : (⟨S1024x64, .f32⟩ : BufTy).Contents (Elt Ideal))

/-! ## The three projections -/

theorem v0_proj (q : Fin 4096) (d : Fin 64) : val_main_v0 (F := Ideal) x0 x2 (ix2 q d) = proj x0 x2 q d := by
  rw [val_main_v0_apply]
  unfold proj
  refine Finset.sum_congr rfl fun e _ => ?_
  rw [show lidx_main_v0 (ix2 q d) e = ix2 q e from funext fun a => Fin.ext (by match a with | ⟨0, _⟩ => rfl | ⟨1, _⟩ => rfl),
    show ridx_main_v0 (ix2 q d) e = ix2 e d from funext fun a => Fin.ext (by match a with | ⟨0, _⟩ => rfl | ⟨1, _⟩ => rfl)]

theorem v1_proj (q : Fin 4096) (d : Fin 64) : val_main_v1 (F := Ideal) x0 x3 (ix2 q d) = proj x0 x3 q d := by
  rw [val_main_v1_apply]
  unfold proj
  refine Finset.sum_congr rfl fun e _ => ?_
  rw [show lidx_main_v1 (ix2 q d) e = ix2 q e from funext fun a => Fin.ext (by match a with | ⟨0, _⟩ => rfl | ⟨1, _⟩ => rfl),
    show ridx_main_v1 (ix2 q d) e = ix2 e d from funext fun a => Fin.ext (by match a with | ⟨0, _⟩ => rfl | ⟨1, _⟩ => rfl)]

theorem v2_proj (q : Fin 4096) (d : Fin 64) : val_main_v2 (F := Ideal) x0 x4 (ix2 q d) = proj x0 x4 q d := by
  rw [val_main_v2_apply]
  unfold proj
  refine Finset.sum_congr rfl fun e _ => ?_
  rw [show lidx_main_v2 (ix2 q d) e = ix2 q e from funext fun a => Fin.ext (by match a with | ⟨0, _⟩ => rfl | ⟨1, _⟩ => rfl),
    show ridx_main_v2 (ix2 q d) e = ix2 e d from funext fun a => Fin.ext (by match a with | ⟨0, _⟩ => rfl | ⟨1, _⟩ => rfl)]

/-! ## The scores -/

/-- The scaled, masked score of query q against key k. -/
theorem v9_score (q k : Fin 4096) : val_main_v9 (F := Ideal) x0 x1 x2 x3 (ix2 q k) = scoreR x0 x2 x3 x1 q k := by
  rw [val_main_v9_apply, val_main_v7_apply, val_main_v5_apply, val_main_v6_apply, val_main_v8_apply, val_main_v3_apply,
    val_main_cst_apply]
  unfold scoreR c64
  rw [show idx_main_v6 (ix2 q k) = ix2 0 k from funext fun a => Fin.ext (by match a with | ⟨0, _⟩ => rfl | ⟨1, _⟩ => rfl)]
  refine congrArg (fun s => Ideal.div (s * x1 (ix2 0 k)) (Ideal.sqrt (Ideal.ofBits .f32 0x42800000#32))) ?_
  refine Finset.sum_congr rfl fun d' _ => ?_
  rw [show lidx_main_v5 (ix2 q k) d' = ix2 q d' from funext fun a => Fin.ext (by match a with | ⟨0, _⟩ => rfl | ⟨1, _⟩ => rfl),
    show ridx_main_v5 (ix2 q k) d' = ix2 d' k from funext fun a => Fin.ext (by match a with | ⟨0, _⟩ => rfl | ⟨1, _⟩ => rfl),
    val_main_v4_apply,
    show idx_main_v4 (ix2 d' k) = ix2 k d' from funext fun a => Fin.ext (by match a with | ⟨0, _⟩ => rfl | ⟨1, _⟩ => rfl),
    v0_proj, v1_proj]

/-! ## The softmax along a row -/

/-- Taking `max` with the fold's own starting value changes nothing. -/
theorem max_negInf_rowMax (S : Fin 4096 → EReal) : max negInf (rowMax S) = rowMax S :=
  max_eq_right ((Finset.le_fold_max _).mpr (Or.inl le_rfl))

/-- The row's maximum, as the reference takes it. -/
theorem v12_rowMax (q : Fin 4096) :
    val_main_v12 (F := Ideal) x0 x1 x2 x3 (ix1 q) = rowMax (fun k => scoreR x0 x2 x3 x1 q k) := by
  rw [val_main_v12_apply, val_main_v11_apply, val_main_cst_1_apply]
  have h10 : val_main_v10 (F := Ideal) x0 x1 x2 x3 (ix1 q) = rowMax (fun k => val_main_v9 (F := Ideal) x0 x1 x2 x3 (ix2 q k)) := by
    unfold val_main_v10
    generalize val_main_v9 (F := Ideal) x0 x1 x2 x3 = y
    have hr : S4096x4096.Reduces [1] S4096 := by decide
    refine (Host.reduce_eq_fold_single (α := EReal) (FloatOps.maximumf (F := Ideal) (φ := .f32)) (y : S4096x4096.Idx → EReal) _ reducesTo_S4096x4096_S4096_d1 hr h_S_ (ix1 q)).trans ?_
    unfold rowMax negInf
    refine congrArg (fun f => (Finset.univ : Finset (Fin 4096)).fold max (Ideal.ofBits .f32 0xFF800000#32) f) (funext fun k => ?_)
    exact congrArg y (funext fun a => Fin.ext (by match a with | ⟨0, _⟩ => rfl | ⟨1, _⟩ => rfl))
  rw [h10]
  simp only [v9_score]
  exact max_negInf_rowMax _

/-- The exponential of a score less its row's maximum. -/
theorem v16_exp (q k : Fin 4096) :
    val_main_v16 (F := Ideal) x0 x1 x2 x3 (ix2 q k)
      = Ideal.exp (scoreR x0 x2 x3 x1 q k - rowMax (fun k => scoreR x0 x2 x3 x1 q k)) := by
  rw [val_main_v16_apply, val_main_v15_apply, val_main_v14_apply, val_main_v13_apply, v9_score,
    show idx_main_v13 (idx_main_v14 (ix2 q k)) = ix1 q from funext fun a => Fin.ext (by match a with | ⟨0, _⟩ => rfl),
    v12_rowMax]
  rfl

/-- The row's sum of exponentials. -/
theorem v17_sum (q : Fin 4096) :
    val_main_v17 (F := Ideal) x0 x1 x2 x3 (ix1 q)
      = ∑ k' : Fin 4096, Ideal.exp (scoreR x0 x2 x3 x1 q k' - rowMax (fun k => scoreR x0 x2 x3 x1 q k)) := by
  rw [val_main_v17_apply, val_main_cst_2_apply]
  show Ideal.ofBits .f32 0x00000000#32 + _ = _
  rw [Ideal.ofBits_zero_f32, zero_add]
  refine Finset.sum_congr rfl fun k' _ => ?_
  rw [show idx_main_v17 (ix1 q) k' = ix2 q k' from funext fun a => Fin.ext (by match a with | ⟨0, _⟩ => rfl | ⟨1, _⟩ => rfl),
    v16_exp]

/-- The softmax weight of key k for query q. -/
theorem v20_weight (q k : Fin 4096) :
    val_main_v20 (F := Ideal) x0 x1 x2 x3 (ix2 q k)
      = Ideal.div (Ideal.exp (scoreR x0 x2 x3 x1 q k - rowMax (fun k => scoreR x0 x2 x3 x1 q k)))
          (∑ k' : Fin 4096, Ideal.exp (scoreR x0 x2 x3 x1 q k' - rowMax (fun k => scoreR x0 x2 x3 x1 q k))) := by
  rw [val_main_v20_apply, val_main_v19_apply, val_main_v18_apply, v16_exp,
    show idx_main_v18 (idx_main_v19 (ix2 q k)) = ix1 q from funext fun a => Fin.ext (by match a with | ⟨0, _⟩ => rfl),
    v17_sum]
  rfl

/-! ## The result -/

theorem result_eq : val_main_v21 (F := Ideal) x0 x1 x2 x3 x4 = outR x0 x1 x2 x3 x4 := by
  funext i
  obtain ⟨q, d, rfl⟩ : ∃ (q : Fin 4096) (d : Fin 64), i = ix2 q d := ⟨i 0, i 1, eq_ix2 i⟩
  rw [val_main_v21_apply]
  unfold outR attnRow
  refine Finset.sum_congr rfl fun k _ => ?_
  rw [show lidx_main_v21 (ix2 q d) k = ix2 q k from funext fun a => Fin.ext (by match a with | ⟨0, _⟩ => rfl | ⟨1, _⟩ => rfl),
    show ridx_main_v21 (ix2 q d) k = ix2 k d from funext fun a => Fin.ext (by match a with | ⟨0, _⟩ => rfl | ⟨1, _⟩ => rfl),
    v20_weight, v2_proj]

end Cert.ReferenceIdeal.RefValue

end
-- ==== Proof.Finite.lean ====
/-
  From the precondition to real numbers.

  The precondition says, of each of the five argument arrays, that every entry's absolute value is below +∞ (one
  `and` over the whole array per argument, the five results joined by `and`). An extended real whose absolute value
  `max x (-x)` is below +∞ is neither infinity, so it is a real number; hence each argument array is the coercion of
  an array of reals — the form in which the two score formulas are compared.
-/
import proofs.«165219_j7421703487580_2_alg».proof.Pre_finite_inputs
import Idealize.ShloMosaic.Lib.ReduceAll
import Idealize.ShloMosaic.Lib.ValueIdx
import Idealize.ShloMosaic.Lib.Pipeline.Value
import Idealize.ShloMosaic.PureOps.Ideal.Laws

noncomputable section

namespace Cert.Pre_finite_inputs.Finite

open Cert.Pre_finite_inputs Idealize.ShloMosaic

instance : Subsingleton S_.Idx := ⟨fun a b => funext fun d => d.elim0⟩

/-- The pattern the precondition compares against denotes +∞. -/
theorem posInf : Ideal.ofBits .f32 0x7F800000#32 = ⊤ := by simp [Ideal.ofBits, Ideal.ieee]

/-- A comparison's one-bit word is 1 exactly when the comparison holds. -/
theorem ofBool_eq_one (b : Bool) : BitVec.ofBool b = 1#1 ↔ b = true := by cases b <;> decide

/-- An extended real whose absolute value is below +∞ is a real number. -/
theorem real_of_abs_lt_top (x : EReal) (h : max x (-x) < ⊤) : ∃ r : ℝ, x = r := by
  induction x using EReal.rec with
  | bot => exact absurd h (by simp)
  | top => exact absurd h (by simp)
  | coe r => exact ⟨r, rfl⟩

/-- One entry of an array that passes the comparison `|a| < +∞` is a real number. -/
theorem entry_real {S : Shape} (a : FVec Ideal S .f32) (hb : S_.BroadcastsInDim S (![] : Fin 0 → Fin S.rank)) (i : S.Idx)
    (h : cmpf .olt (Host.absf a) (broadcastInDim S ![] hb (constant (F := Ideal) S_ .f32 0x7F800000#32)) i = 1#1) :
    ∃ r : ℝ, a i = r := by
  have hb' : broadcastInDim S ![] hb (constant (F := Ideal) S_ .f32 0x7F800000#32) i = Ideal.ofBits .f32 0x7F800000#32 :=
    broadcastInDim_apply _ hb _ i ValueIdx.ix0 (fun a => a.elim0)
  have h' : Ideal.cmp .olt (max (a i) (-(a i))) (broadcastInDim S ![] hb (constant (F := Ideal) S_ .f32 0x7F800000#32) i) = 1#1 := h
  rw [hb', posInf] at h'
  refine real_of_abs_lt_top (a i) ?_
  have h'' : decide (max (a i) (-(a i)) < ⊤) = true := (ofBool_eq_one _).1 h'
  exact of_decide_eq_true h''

/-- An array all of whose entries pass is the coercion of an array of reals. -/
theorem array_real {S : Shape} (a : FVec Ideal S .f32) (hb : S_.BroadcastsInDim S (![] : Fin 0 → Fin S.rank))
    (h : ∀ i, cmpf .olt (Host.absf a) (broadcastInDim S ![] hb (constant (F := Ideal) S_ .f32 0x7F800000#32)) i = 1#1) :
    ∃ x : S.Idx → ℝ, a = fun i => (x i : EReal) := by
  choose x hx using fun i => entry_real a hb i (h i)
  exact ⟨x, funext hx⟩

variable [Facts]

/-- Under the precondition each of the five argument arrays holds real numbers. -/
theorem arrays_real (a0 : FVec Ideal S4096x1024 .f32) (a1 : FVec Ideal S1x4096 .f32) (a2 a3 a4 : FVec Ideal S1024x64 .f32)
    (h : fn (F := Ideal) a0 a1 a2 a3 a4 = fun _ => 1#1) :
    (∃ x : S4096x1024.Idx → ℝ, a0 = fun i => (x i : EReal))
    ∧ (∃ x : S1x4096.Idx → ℝ, a1 = fun i => (x i : EReal))
    ∧ (∃ x : S1024x64.Idx → ℝ, a2 = fun i => (x i : EReal))
    ∧ (∃ x : S1024x64.Idx → ℝ, a3 = fun i => (x i : EReal))
    ∧ (∃ x : S1024x64.Idx → ℝ, a4 = fun i => (x i : EReal)) := by
  have h0 := congrFun h ValueIdx.ix0
  dsimp only [fn, fn_part1] at h0
  obtain ⟨h18, h22⟩ := IntOp.andi_eq_one.1 h0
  obtain ⟨h13, h17⟩ := IntOp.andi_eq_one.1 h18
  obtain ⟨h8, h12⟩ := IntOp.andi_eq_one.1 h13
  obtain ⟨h3, h7⟩ := IntOp.andi_eq_one.1 h8
  exact ⟨array_real a0 _ fun i => Host.reduce_andi_all _ _ _ _ _ h3 i,
    array_real a1 _ fun i => Host.reduce_andi_all _ _ _ _ _ h7 i,
    array_real a2 _ fun i => Host.reduce_andi_all _ _ _ _ _ h12 i,
    array_real a3 _ fun i => Host.reduce_andi_all _ _ _ _ _ h17 i,
    array_real a4 _ fun i => Host.reduce_andi_all _ _ _ _ _ h22 i⟩

end Cert.Pre_finite_inputs.Finite

end
-- ==== Proof.lean ====
/-
  Single-head attention over 4096 tokens of width 1024 with 64 channels: a two-kernel program against the plain
  formula, equal as extended reals under finite inputs.

  The kernel program reshapes the mask row into a column, runs a projection kernel (queries times 1/8, keys times
  their mask entry, values) and then an attention kernel (scores, row softmax with the maximum subtracted, product with
  the values). The reference projects, multiplies queries by transposed keys, multiplies by the mask row, divides by
  `sqrt 64`, applies a row softmax and multiplies by the values.

  * Each program's run terminates with its arguments unchanged (the three frame claims; the reference's from its run).
  * The idealization rewrote nothing, so the fourth claim is `True`.
  * At the ideal instance the kernel program's result array is `outK` of the arguments (each region's output array
    read through its blocks, the regions composed) and the reference's is `outR` (read one operation at a time).
    The two differ only in whether the factors 1/8 and the mask entry multiply the projections before the sum
    over channels or the sum after it; under the precondition every argument entry is a real number, and in the
    reals that is distributivity, with `sqrt 64 = 8`.
-/
import proofs.«165219_j7421703487580_2_alg».proof.Defs
import proofs.«165219_j7421703487580_2_alg».proof.Proof.Gen.Kernel
import proofs.«165219_j7421703487580_2_alg».proof.Proof.Gen.Kernel.Skeleton
import proofs.«165219_j7421703487580_2_alg».proof.Proof.Gen.Kernel.Launch
import proofs.«165219_j7421703487580_2_alg».proof.Proof.Gen.Kernel.Points
import proofs.«165219_j7421703487580_2_alg».proof.Proof.Gen.Kernel.Frame
import proofs.«165219_j7421703487580_2_alg».proof.Proof.Gen.KernelIdeal
import proofs.«165219_j7421703487580_2_alg».proof.Proof.Gen.KernelIdeal.Skeleton
import proofs.«165219_j7421703487580_2_alg».proof.Proof.Gen.KernelIdeal.Launch
import proofs.«165219_j7421703487580_2_alg».proof.Proof.Gen.KernelIdeal.Points
import proofs.«165219_j7421703487580_2_alg».proof.Proof.Gen.KernelIdeal.Frame
import proofs.«165219_j7421703487580_2_alg».proof.Proof.Gen.ReferenceIdeal
import proofs.«165219_j7421703487580_2_alg».proof.Proof.Gen.Pre_finite_inputs
import proofs.«165219_j7421703487580_2_alg».proof.Proof.Gen.ReferenceIdeal.Run
import proofs.«165219_j7421703487580_2_alg».proof.Proof.Gen.ReferenceIdeal.Read
import proofs.«165219_j7421703487580_2_alg».proof.Proof.AttnSpec
import proofs.«165219_j7421703487580_2_alg».proof.Proof.KernelRun
import proofs.«165219_j7421703487580_2_alg».proof.Proof.RefValue
import proofs.«165219_j7421703487580_2_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at `outK` of the kernel program's arguments: the kernel program's by its
    run, the reference's because its result is `outR` of arguments that agree, and `outR = outK` on real arrays. -/
theorem algebraic : Cert.algebraic_KernelIdeal_ReferenceIdeal := by
  intro m ρ m' ρ' hpre hagree
  refine ⟨_, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.ReferenceIdeal.RefValue.result_eq,
    (hagree c).1, (hagree c).2.1, (hagree c).2.2.1, (hagree c).2.2.2.1, (hagree c).2.2.2.2]
  obtain ⟨h0, h1, h2, h3, -⟩ := Cert.Pre_finite_inputs.Finite.arrays_real _ _ _ _ _ (hpre c)
  exact (Cert.AttnSpec.out_eq _ _ _ _ _ h0 h1 h2 h3).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
